-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x64 : Shape := ⟨2, ![256, 64]⟩
abbrev S512x64 : Shape := ⟨2, ![512, 64]⟩
abbrev S512x4096 : Shape := ⟨2, ![512, 4096]⟩
abbrev S512x262144 : Shape := ⟨2, ![512, 262144]⟩
abbrev S512 : Shape := ⟨1, ![512]⟩
abbrev S_ : Shape := ⟨0, ![]⟩

class Facts : Prop where
  bcast_S_S256x64 : S_.BroadcastsInDim S256x64 (![] : Fin 0 → Fin S256x64.rank)
  reducesTo_S256x64_S_d0_1 : S256x64.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S512x4096 : S_.BroadcastsInDim S512x4096 (![] : Fin 0 → Fin S512x4096.rank)
  reducesTo_S512x4096_S_d0_1 : S512x4096.ReducesTo [0, 1] S_
  bcast_S_S512x262144 : S_.BroadcastsInDim S512x262144 (![] : Fin 0 → Fin S512x262144.rank)
  reducesTo_S512x262144_S_d0_1 : S512x262144.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S512x262144 1) : IVec S_ 1 :=
  let main_c_5 : IVec S_ 1 := constantI S_ 1 1#1
  let main_v17 : IVec S_ 1 := (fun x v => Host.reduce IntOp.andi x v reducesTo_S512x262144_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S256x64 .f32) (main_arg1 : FVec F S512x64 .f32) (main_arg2 : FVec F S512x4096 .f32) (main_arg3 : FVec F S512x262144 .f32) (main_arg4 : FVec F S512 .f32) : IVec S_ 1 :=
  let main_v0 : FVec F S256x64 .f32 := Host.absf main_arg0
  let main_cst : FVec F S_ .f32 := constant S_ .f32 0x7F800000#32
  let main_v1 : FVec F S256x64 .f32 := broadcastInDim S256x64 ![] bcast_S_S256x64 main_cst
  let main_v2 : IVec S256x64 1 := cmpf .olt main_v0 main_v1
  let main_c : IVec S_ 1 := constantI S_ 1 1#1
  let main_v3 : IVec S_ 1 := (fun x v => Host.reduce IntOp.andi x v reducesTo_S256x64_S_d0_1 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S512x4096 .f32 := Host.absf main_arg2
  let main_cst_2 : FVec F S_ .f32 := constant S_ .f32 0x7F800000#32
  let main_v10 : FVec F S512x4096 .f32 := broadcastInDim S512x4096 ![] bcast_S_S512x4096 main_cst_2
  let main_v11 : IVec S512x4096 1 := cmpf .olt main_v9 main_v10
  let main_c_3 : IVec S_ 1 := constantI S_ 1 1#1
  let main_v12 : IVec S_ 1 := (fun x v => Host.reduce IntOp.andi x v reducesTo_S512x4096_S_d0_1 h_S_) main_v11 main_c_3
  let main_v13 : IVec S_ 1 := andi main_v8 main_v12
  let main_v14 : FVec F S512x262144 .f32 := Host.absf main_arg3
  let main_cst_4 : FVec F S_ .f32 := constant S_ .f32 0x7F800000#32
  let main_v15 : FVec F S512x262144 .f32 := broadcastInDim S512x262144 ![] bcast_S_S512x262144 main_cst_4
  let main_v16 : IVec S512x262144 1 := cmpf .olt main_v14 main_v15
  fn_part1 (F := F) main_arg4 main_v13 main_v16
-- ==== Kernel.lean ====
abbrev S256x64 : Shape := ⟨2, ![256, 64]⟩
abbrev S512x64 : Shape := ⟨2, ![512, 64]⟩
abbrev S512x4096 : Shape := ⟨2, ![512, 4096]⟩
abbrev S512x262144 : Shape := ⟨2, ![512, 262144]⟩
abbrev S512 : Shape := ⟨1, ![512]⟩
abbrev S256x64x1 : Shape := ⟨3, ![256, 64, 1]⟩
abbrev S256x1x64 : Shape := ⟨3, ![256, 1, 64]⟩
abbrev S256x64x64 : Shape := ⟨3, ![256, 64, 64]⟩
abbrev S256x4096 : Shape := ⟨2, ![256, 4096]⟩
abbrev S1x512 : Shape := ⟨2, ![1, 512]⟩
abbrev S256x512 : Shape := ⟨2, ![256, 512]⟩
abbrev S256x128 : Shape := ⟨2, ![256, 128]⟩
abbrev S256x8192 : Shape := ⟨2, ![256, 8192]⟩
abbrev S1x256 : Shape := ⟨2, ![1, 256]⟩
abbrev S256x256 : Shape := ⟨2, ![256, 256]⟩
abbrev S64x256 : Shape := ⟨2, ![64, 256]⟩
abbrev S128x256 : Shape := ⟨2, ![128, 256]⟩
abbrev S256x128x1 : Shape := ⟨3, ![256, 128, 1]⟩
abbrev S256x128x64 : Shape := ⟨3, ![256, 128, 64]⟩
abbrev S8192x256 : Shape := ⟨2, ![8192, 256]⟩

abbrev nBuf : Space → Nat
  | .hbm => 13
  | .vmem => 14
  | .smem => 0
  | _ => 0

abbrev bufTy : (tb : Table) → Fin (tcTables nBuf tb) → BufTy
  | .hbm, ⟨0, _⟩ => ⟨S256x64, .f32⟩
  | .hbm, ⟨1, _⟩ => ⟨S512x64, .f32⟩
  | .hbm, ⟨2, _⟩ => ⟨S512x4096, .f32⟩
  | .hbm, ⟨3, _⟩ => ⟨S512x262144, .f32⟩
  | .hbm, ⟨4, _⟩ => ⟨S512, .f32⟩
  | .hbm, ⟨5, _⟩ => ⟨S256x64x1, .f32⟩
  | .hbm, ⟨6, _⟩ => ⟨S256x1x64, .f32⟩
  | .hbm, ⟨7, _⟩ => ⟨S256x64x64, .f32⟩
  | .hbm, ⟨8, _⟩ => ⟨S256x64x64, .f32⟩
  | .hbm, ⟨9, _⟩ => ⟨S256x64x64, .f32⟩
  | .hbm, ⟨10, _⟩ => ⟨S256x4096, .f32⟩
  | .hbm, ⟨11, _⟩ => ⟨S1x512, .f32⟩
  | .hbm, ⟨12, _⟩ => ⟨S256x512, .f32⟩
  | .local _ .vmem, ⟨0, _⟩ => ⟨S256x64, .f32⟩
  | .local _ .vmem, ⟨1, _⟩ => ⟨S256x128, .f32⟩
  | .local _ .vmem, ⟨2, _⟩ => ⟨S256x128, .f32⟩
  | .local _ .vmem, ⟨3, _⟩ => ⟨S256x64, .f32⟩
  | .local _ .vmem, ⟨4, _⟩ => ⟨S256x64, .f32⟩
  | .local _ .vmem, ⟨5, _⟩ => ⟨S256x128, .f32⟩
  | .local _ .vmem, ⟨6, _⟩ => ⟨S256x128, .f32⟩
  | .local _ .vmem, ⟨7, _⟩ => ⟨S256x8192, .f32⟩
  | .local _ .vmem, ⟨8, _⟩ => ⟨S256x8192, .f32⟩
  | .local _ .vmem, ⟨9, _⟩ => ⟨S1x256, .f32⟩
  | .local _ .vmem, ⟨10, _⟩ => ⟨S1x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v28 : BitVec 1 := Scalar.cmpi .eq arg1 c31_i32
  let v29 : BitVec 32 := Scalar.extui v28
  let c0_i32_13 : BitVec 32 := 0#32
  let v30 : BitVec 1 := Scalar.cmpi .ne v29 c0_i32_13
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S256x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bcast_S256x64_S256x64x1_0_1 : S256x64.BroadcastsInDim S256x64x1 (![0, 1] : Fin 2 → Fin S256x64x1.rank)
  bcast_S256x64_S256x1x64_0_2 : S256x64.BroadcastsInDim S256x1x64 (![0, 2] : Fin 2 → Fin S256x1x64.rank)
  bcast_S256x64x1_S256x64x64_0_1_2 : S256x64x1.BroadcastsInDim S256x64x64 (![0, 1, 2] : Fin 3 → Fin S256x64x64.rank)
  bcast_S256x1x64_S256x64x64_0_1_2 : S256x1x64.BroadcastsInDim S256x64x64 (![0, 1, 2] : Fin 3 → Fin S256x64x64.rank)
  shapeCasts_S256x64x64_S256x4096 : S256x64x64.ShapeCasts S256x4096
  shapeCasts_S512_S1x512 : S512.ShapeCasts S1x512
  inb_S256x64_S256x64_0_0 : ∀ a, (![0, 0] : Fin 2 → Nat) a + S256x64.size a ≤ S256x64.size a
  h_S256x64 : 0 < S256x64.numel
  bitsLt_bf16_f32 : FTy.bits .bf16 < FTy.bits .f32
  transposes_S256x64_p1_0_S64x256 : S256x64.Transposes [1, 0] S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  transposes_S256x128_p1_0_S128x256 : S256x128.Transposes [1, 0] S128x256
  shapeCasts_S256x128_S256x128x1 : S256x128.ShapeCasts S256x128x1
  shapeCasts_S256x64_S256x1x64 : S256x64.ShapeCasts S256x1x64
  broadcasts_S256x128x1_S256x128x64 : S256x128x1.Broadcasts S256x128x64
  broadcasts_S256x1x64_S256x128x64 : S256x1x64.Broadcasts S256x128x64
  shapeCasts_S256x128x64_S256x8192 : S256x128x64.ShapeCasts S256x8192
  inb_S256x8192_S256x8192_0_0 : ∀ a, (![0, 0] : Fin 2 → Nat) a + S256x8192.size a ≤ S256x8192.size a
  h_S256x8192 : 0 < S256x8192.numel
  transposes_S256x8192_p1_0_S8192x256 : S256x8192.Transposes [1, 0] S8192x256
  dot_S256x64_S64x256_S256x256_1_0_0_1_n_n_wf : DotDims.WF S256x64 S64x256 S256x256 [1] [0] [0] [1] [] []
  dot_S256x128_S128x256_S256x256_1_0_0_1_n_n_wf : DotDims.WF S256x128 S128x256 S256x256 [1] [0] [0] [1] [] []
  dot_S256x8192_S8192x256_S256x256_1_0_0_1_n_n_wf : DotDims.WF S256x8192 S8192x256 S256x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x64.size a ≤ S256x64.size a
  hwx0_0 : ∀ i : grid0.Coords, EltTy.bits .f32 = 32 ∨ (Rect.block (s := S256x64) S256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x4096.size a
  hwx0_1 : ∀ i : grid0.Coords, EltTy.bits .f32 = 32 ∨ (Rect.block (s := S256x4096) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S512x64.size a
  hwx0_2 : ∀ i : grid0.Coords, EltTy.bits .f32 = 32 ∨ (Rect.block (s := S512x64) S256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S512x4096.size a
  hwx0_3 : ∀ i : grid0.Coords, EltTy.bits .f32 = 32 ∨ (Rect.block (s := S512x4096) S256x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x8192.size a ≤ S512x262144.size a
  hwx0_4 : ∀ i : grid0.Coords, EltTy.bits .f32 = 32 ∨ (Rect.block (s := S512x262144) S256x8192.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x512.size a
  hwx0_5 : ∀ i : grid0.Coords, EltTy.bits .f32 = 32 ∨ (Rect.block (s := S1x512) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x512.size a
  hwx0_6 : ∀ i : grid0.Coords, EltTy.bits .f32 = 32 ∨ (Rect.block (s := S256x512) S256x256.size (cc0_transform_6 i) (hinb0_6 i)).WholeWords (EltTy.packing .f32)

variable [Facts₀]

def dot_S256x64_S64x256_S256x256_1_0_0_1_n_n : DotDims S256x64 S64x256 S256x256 where
  lhsContracting := [1]
  rhsContracting := [0]
  lhsNonContracting := [0]
  rhsNonContracting := [1]
  lhsBatch := []
  rhsBatch := []
  wf := dot_S256x64_S64x256_S256x256_1_0_0_1_n_n_wf
def dot_S256x128_S128x256_S256x256_1_0_0_1_n_n : DotDims S256x128 S128x256 S256x256 where
  lhsContracting := [1]
  rhsContracting := [0]
  lhsNonContracting := [0]
  rhsNonContracting := [1]
  lhsBatch := []
  rhsBatch := []
  wf := dot_S256x128_S128x256_S256x256_1_0_0_1_n_n_wf
def dot_S256x8192_S8192x256_S256x256_1_0_0_1_n_n : DotDims S256x8192 S8192x256 S256x256 where
  lhsContracting := [1]
  rhsContracting := [0]
  lhsNonContracting := [0]
  rhsNonContracting := [1]
  lhsBatch := []
  rhsBatch := []
  wf := dot_S256x8192_S8192x256_S256x256_1_0_0_1_n_n_wf

abbrev win0_0 : Pipeline.Window sig grid0 :=
  Pipeline.Window.ofSpec (Memref.whole main_arg0) S256x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v5) S256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256x8192.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7) S256x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S256x64 : Shape := ⟨2, ![256, 64]⟩
abbrev S512x64 : Shape := ⟨2, ![512, 64]⟩
abbrev S512x4096 : Shape := ⟨2, ![512, 4096]⟩
abbrev S512x262144 : Shape := ⟨2, ![512, 262144]⟩
abbrev S512 : Shape := ⟨1, ![512]⟩
abbrev S1x512 : Shape := ⟨2, ![1, 512]⟩
abbrev S256x512 : Shape := ⟨2, ![256, 512]⟩
abbrev S256x64x1 : Shape := ⟨3, ![256, 64, 1]⟩
abbrev S256x1x64 : Shape := ⟨3, ![256, 1, 64]⟩
abbrev S256x64x64 : Shape := ⟨3, ![256, 64, 64]⟩
abbrev S256x4096 : Shape := ⟨2, ![256, 4096]⟩
abbrev S256x4096x1 : Shape := ⟨3, ![256, 4096, 1]⟩
abbrev S256x4096x64 : Shape := ⟨3, ![256, 4096, 64]⟩
abbrev S256x262144 : Shape := ⟨2, ![256, 262144]⟩

abbrev nBuf : Space → Nat
  | .hbm => 25
  | .vmem => 0
  | .smem => 0
  | _ => 0

abbrev bufTy : (tb : Table) → Fin (tcTables nBuf tb) → BufTy
  | .hbm, ⟨0, _⟩ => ⟨S256x64, .f32⟩
  | .hbm, ⟨1, _⟩ => ⟨S512x64, .f32⟩
  | .hbm, ⟨2, _⟩ => ⟨S512x4096, .f32⟩
  | .hbm, ⟨3, _⟩ => ⟨S512x262144, .f32⟩
  | .hbm, ⟨4, _⟩ => ⟨S512, .f32⟩
  | .hbm, ⟨5, _⟩ => ⟨S1x512, .f32⟩
  | .hbm, ⟨6, _⟩ => ⟨S256x512, .f32⟩
  | .hbm, ⟨7, _⟩ => ⟨S256x512, .f32⟩
  | .hbm, ⟨8, _⟩ => ⟨S256x512, .f32⟩
  | .hbm, ⟨9, _⟩ => ⟨S256x64x1, .f32⟩
  | .hbm, ⟨10, _⟩ => ⟨S256x1x64, .f32⟩
  | .hbm, ⟨11, _⟩ => ⟨S256x64x64, .f32⟩
  | .hbm, ⟨12, _⟩ => ⟨S256x64x64, .f32⟩
  | .hbm, ⟨13, _⟩ => ⟨S256x64x64, .f32⟩
  | .hbm, ⟨14, _⟩ => ⟨S256x4096, .f32⟩
  | .hbm, ⟨15, _⟩ => ⟨S256x512, .f32⟩
  | .hbm, ⟨16, _⟩ => ⟨S256x512, .f32⟩
  | .hbm, ⟨17, _⟩ => ⟨S256x4096x1, .f32⟩
  | .hbm, ⟨18, _⟩ => ⟨S256x1x64, .f32⟩
  | .hbm, ⟨19, _⟩ => ⟨S256x4096x64, .f32⟩
  | .hbm, ⟨20, _⟩ => ⟨S256x4096x64, .f32⟩
  | .hbm, ⟨21, _⟩ => ⟨S256x4096x64, .f32⟩
  | .hbm, ⟨22, _⟩ => ⟨S256x262144, .f32⟩
  | .hbm, ⟨23, _⟩ => ⟨S256x512, .f32⟩
  | .hbm, ⟨24, _⟩ => ⟨S256x512, .f32⟩
  | _, _ => ⟨S256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S256x512_0_1 : S1x512.BroadcastsInDim S256x512 (![0, 1] : Fin 2 → Fin S256x512.rank)
  bcast_S256x64_S256x64x1_0_1 : S256x64.BroadcastsInDim S256x64x1 (![0, 1] : Fin 2 → Fin S256x64x1.rank)
  bcast_S256x64_S256x1x64_0_2 : S256x64.BroadcastsInDim S256x1x64 (![0, 2] : Fin 2 → Fin S256x1x64.rank)
  bcast_S256x64x1_S256x64x64_0_1_2 : S256x64x1.BroadcastsInDim S256x64x64 (![0, 1, 2] : Fin 3 → Fin S256x64x64.rank)
  bcast_S256x1x64_S256x64x64_0_1_2 : S256x1x64.BroadcastsInDim S256x64x64 (![0, 1, 2] : Fin 3 → Fin S256x64x64.rank)
  shapeCasts_S256x64x64_S256x4096 : S256x64x64.ShapeCasts S256x4096
  bcast_S256x4096_S256x4096x1_0_1 : S256x4096.BroadcastsInDim S256x4096x1 (![0, 1] : Fin 2 → Fin S256x4096x1.rank)
  bcast_S256x4096x1_S256x4096x64_0_1_2 : S256x4096x1.BroadcastsInDim S256x4096x64 (![0, 1, 2] : Fin 3 → Fin S256x4096x64.rank)
  bcast_S256x1x64_S256x4096x64_0_1_2 : S256x1x64.BroadcastsInDim S256x4096x64 (![0, 1, 2] : Fin 3 → Fin S256x4096x64.rank)
  shapeCasts_S256x4096x64_S256x262144 : S256x4096x64.ShapeCasts S256x262144
  dot_S256x64_S512x64_S256x512_1_1_0_0_n_n_wf : DotDims.WF S256x64 S512x64 S256x512 [1] [1] [0] [0] [] []
  dot_S256x4096_S512x4096_S256x512_1_1_0_0_n_n_wf : DotDims.WF S256x4096 S512x4096 S256x512 [1] [1] [0] [0] [] []
  dot_S256x262144_S512x262144_S256x512_1_1_0_0_n_n_wf : DotDims.WF S256x262144 S512x262144 S256x512 [1] [1] [0] [0] [] []

variable [Facts₀]

def dot_S256x64_S512x64_S256x512_1_1_0_0_n_n : DotDims S256x64 S512x64 S256x512 where
  lhsContracting := [1]
  rhsContracting := [1]
  lhsNonContracting := [0]
  rhsNonContracting := [0]
  lhsBatch := []
  rhsBatch := []
  wf := dot_S256x64_S512x64_S256x512_1_1_0_0_n_n_wf
def dot_S256x4096_S512x4096_S256x512_1_1_0_0_n_n : DotDims S256x4096 S512x4096 S256x512 where
  lhsContracting := [1]
  rhsContracting := [1]
  lhsNonContracting := [0]
  rhsNonContracting := [0]
  lhsBatch := []
  rhsBatch := []
  wf := dot_S256x4096_S512x4096_S256x512_1_1_0_0_n_n_wf
def dot_S256x262144_S512x262144_S256x512_1_1_0_0_n_n : DotDims S256x262144 S512x262144 S256x512 where
  lhsContracting := [1]
  rhsContracting := [1]
  lhsNonContracting := [0]
  rhsNonContracting := [0]
  lhsBatch := []
  rhsBatch := []
  wf := dot_S256x262144_S512x262144_S256x512_1_1_0_0_n_n_wf

class Facts : Prop extends Facts₀ where

variable [Facts]
-- ==== Proof.Pieces.lean ====
/-
  What one grid point leaves behind, as pure values. At every point the body adds to the running total, kept in the
  carried scratch, the point's two partial products (`k0_pay2`: the tile of the Kronecker square against the tile of
  the second weight, plus the tile of the Kronecker cube against the tile of the third weight). At the first point of
  a run the running total is first set to the first contraction plus the bias (`k0_pay1`) and then read back; at the
  last point of a run the total just stored is read back once more and copied to the output block. Every load and
  store goes through the whole staging buffer, so each buffer ends holding exactly the last payload stored into it.
-/
import proofs.«115219_j75402445848831_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The first point of a run leaves in the scratch the point's partial products added to the freshly stored first
    contraction plus bias. -/
theorem sout_A (c : Dev nD) (i : grid0.Coords) (arg2 : Memref sig .tc .vmem S256x64 .f32) (harg2 : arg2.IsWhole) (arg3 : Memref sig .tc .vmem S256x128 .f32) (harg3 : arg3.IsWhole) (arg4 : Memref sig .tc .vmem S256x64 .f32) (harg4 : arg4.IsWhole) (arg5 : Memref sig .tc .vmem S256x128 .f32) (harg5 : arg5.IsWhole) (arg6 : Memref sig .tc .vmem S256x8192 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S256x256 .f32) (harg9 : arg9.IsWhole) (hc0 : cond0_0 i) (hc1 : ¬cond0_1 i) (x0 : Vec F S256x64 .f32) (x1 : Vec F S256x128 .f32) (x2 : Vec F S256x64 .f32) (x3 : Vec F S256x128 .f32) (x4 : Vec F S256x8192 .f32) (x5 : Vec F S1x256 .f32) :
    sout0_A_0 c i arg2 harg2 arg3 harg3 arg4 harg4 arg5 harg5 arg6 harg6 arg7 harg7 arg8 harg8 arg9 harg9 hc0 hc1 x0 x1 x2 x3 x4 x5 = k0_pay2 x1 x3 x0 x4 (k0_pay1 x0 x2 x5) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S256x256) hz, View.readCov_unit_zero (S := S256x256) _ hz]
  simp only [View.readAt_eq_ld, harg2.read_unread, harg3.read_unread, harg4.read_unread, harg5.read_unread, harg6.read_unread,
    harg7.read_unread, harg9.read_unread, View.ld_unit_zero (S := S256x64) hz, View.ld_unit_zero (S := S256x128) hz,
    View.ld_unit_zero (S := S256x8192) hz, View.ld_unit_zero (S := S1x256) hz, View.ld_unit_zero (S := S256x256) hz]

/-- A middle point leaves in the scratch its partial products added to what the point before left. -/
theorem sout_B (c : Dev nD) (i : grid0.Coords) (arg2 : Memref sig .tc .vmem S256x64 .f32) (harg2 : arg2.IsWhole) (arg3 : Memref sig .tc .vmem S256x128 .f32) (harg3 : arg3.IsWhole) (arg4 : Memref sig .tc .vmem S256x64 .f32) (harg4 : arg4.IsWhole) (arg5 : Memref sig .tc .vmem S256x128 .f32) (harg5 : arg5.IsWhole) (arg6 : Memref sig .tc .vmem S256x8192 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S256x256 .f32) (harg9 : arg9.IsWhole) (hc0 : ¬cond0_0 i) (hc1 : ¬cond0_1 i) (x0 : Vec F S256x64 .f32) (x1 : Vec F S256x128 .f32) (x2 : Vec F S256x64 .f32) (x3 : Vec F S256x128 .f32) (x4 : Vec F S256x8192 .f32) (x5 : Vec F S1x256 .f32) (xs0 : Vec F S256x256 .f32) :
    sout0_B_0 c i arg2 harg2 arg3 harg3 arg4 harg4 arg5 harg5 arg6 harg6 arg7 harg7 arg8 harg8 arg9 harg9 hc0 hc1 x0 x1 x2 x3 x4 x5 xs0 = k0_pay2 x1 x3 x0 x4 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 x5 xs0)]
  unfold kernelRun0_B
  dsimp only
  sl_unfold_words
  rw [View.canon_unit_zero (S := S256x256) hz]
  simp only [View.readAt_eq_ld, harg2.read_unread, harg3.read_unread, harg4.read_unread, harg5.read_unread, harg6.read_unread,
    harg7.read_unread, harg9.read_unread, View.ld_unit_zero (S := S256x64) hz, View.ld_unit_zero (S := S256x128) hz,
    View.ld_unit_zero (S := S256x8192) hz, View.ld_unit_zero (S := S1x256) hz, View.ld_unit_zero (S := S256x256) hz]

/-- The last point of a run leaves the same in the scratch, -/
theorem sout_C (c : Dev nD) (i : grid0.Coords) (arg2 : Memref sig .tc .vmem S256x64 .f32) (harg2 : arg2.IsWhole) (arg3 : Memref sig .tc .vmem S256x128 .f32) (harg3 : arg3.IsWhole) (arg4 : Memref sig .tc .vmem S256x64 .f32) (harg4 : arg4.IsWhole) (arg5 : Memref sig .tc .vmem S256x128 .f32) (harg5 : arg5.IsWhole) (arg6 : Memref sig .tc .vmem S256x8192 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S256x256 .f32) (harg9 : arg9.IsWhole) (hc0 : ¬cond0_0 i) (hc1 : cond0_1 i) (x0 : Vec F S256x64 .f32) (x1 : Vec F S256x128 .f32) (x2 : Vec F S256x64 .f32) (x3 : Vec F S256x128 .f32) (x4 : Vec F S256x8192 .f32) (x5 : Vec F S1x256 .f32) (xs0 : Vec F S256x256 .f32) :
    sout0_C_0 c i arg2 harg2 arg3 harg3 arg4 harg4 arg5 harg5 arg6 harg6 arg7 harg7 arg8 harg8 arg9 harg9 hc0 hc1 x0 x1 x2 x3 x4 x5 xs0 = k0_pay2 x1 x3 x0 x4 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero (S := S256x256) hz]
  simp only [View.readAt_eq_ld, harg2.read_unread, harg3.read_unread, harg4.read_unread, harg5.read_unread, harg6.read_unread,
    harg7.read_unread, harg9.read_unread, View.ld_unit_zero (S := S256x64) hz, View.ld_unit_zero (S := S256x128) hz,
    View.ld_unit_zero (S := S256x8192) hz, View.ld_unit_zero (S := S1x256) hz, View.ld_unit_zero (S := S256x256) hz]

/-- and copies it to the output block. -/
theorem out_C (c : Dev nD) (i : grid0.Coords) (arg2 : Memref sig .tc .vmem S256x64 .f32) (harg2 : arg2.IsWhole) (arg3 : Memref sig .tc .vmem S256x128 .f32) (harg3 : arg3.IsWhole) (arg4 : Memref sig .tc .vmem S256x64 .f32) (harg4 : arg4.IsWhole) (arg5 : Memref sig .tc .vmem S256x128 .f32) (harg5 : arg5.IsWhole) (arg6 : Memref sig .tc .vmem S256x8192 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S256x256 .f32) (harg9 : arg9.IsWhole) (hc0 : ¬cond0_0 i) (hc1 : cond0_1 i) (x0 : Vec F S256x64 .f32) (x1 : Vec F S256x128 .f32) (x2 : Vec F S256x64 .f32) (x3 : Vec F S256x128 .f32) (x4 : Vec F S256x8192 .f32) (x5 : Vec F S1x256 .f32) (xs0 : Vec F S256x256 .f32) :
    out0_C_6 c i arg2 harg2 arg3 harg3 arg4 harg4 arg5 harg5 arg6 harg6 arg7 harg7 arg8 harg8 arg9 harg9 hc0 hc1 x0 x1 x2 x3 x4 x5 xs0 = k0_pay2 x1 x3 x0 x4 xs0 := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero (S := S256x256) hz, View.readCov_unit_zero (S := S256x256) _ hz]
  simp only [View.readAt_eq_ld, harg2.read_unread, harg3.read_unread, harg4.read_unread, harg5.read_unread, harg6.read_unread,
    harg7.read_unread, harg9.read_unread, View.ld_unit_zero (S := S256x64) hz, View.ld_unit_zero (S := S256x128) hz,
    View.ld_unit_zero (S := S256x8192) hz, View.ld_unit_zero (S := S1x256) hz, View.ld_unit_zero (S := S256x256) hz]

end Cert.KernelIdeal.Pieces

end
-- ==== Proof.LibMatmulRowsByCols.lean ====
/-
  A matrix product into the zero accumulator, read at an entry.

  On the extended reals a `tpu.matmul` of an `[M, K]` left operand and a `[K, N]` right operand (the contraction on the
  left's second axis and the right's first, no batch axis), accumulated into the zero splat, is at entry `(p, q)` the
  plain sum `∑ₖ l(p, k) · r(k, q)`: no rounding, no order of accumulation. The dimension record is kept abstract; what
  is asked of it is that it contracts one axis of extent `K` and reads its operands at `(p, k)` and `(k, q)`, four
  facts a concrete record gives by unfolding. Imports only the library.
-/
import Idealize.ShloMosaic.PureOps.Ideal.Laws
import Idealize.ShloMosaic.Lib.ValueIdx

namespace Idealize.ShloMosaic.MatmulRowsByCols

open Idealize.ShloMosaic Idealize.ShloMosaic.ValueIdx

/-- `matmul D prec l r 0` at `(p, q)` is `∑ k, l (p, k) * r (k, q)`. -/
theorem matmul_zero_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂)
    (p : Fin M) (q : Fin N) :
    matmul D prec l r (constant (F := Ideal) ⟨2, ![M, N]⟩ .f32 0x00000000#32) (ix2 p q)
      = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulRowsByCols
-- ==== Proof.LibKronLayout.lean ====
/-
  The layout steps of a row-wise Kronecker product, read at coordinates.

  The product of a `[a, b]` array `u` and a `[a, c]` array `v`, row by row, is formed as
  `u[:, :, None] * v[:, None, :]` reshaped to `[a, b·c]`: entry `(i, l)` is `u(i, l / c) · v(i, l % c)`. Each layout
  step is read here at an index given by its coordinates: the cast of `[a, b]` to the column form `[a, b, 1]`, the cast
  of `[a, c]` to the row form `[a, 1, c]`, the broadcasts of those two to `[a, b, c]`, and the cast of `[a, b, c]`
  to `[a, n]` with `n = b·c`. Imports only the library.
-/
import Idealize.ShloMosaic.Lib.Pipeline.Value
import Idealize.ShloMosaic.Lib.ValueIdx

namespace Idealize.ShloMosaic.KronLayout

open Idealize.ShloMosaic Idealize.ShloMosaic.ValueIdx

variable {α : Type}

/-- A column of an `n = b·c`-wide row lies in one of its `b` runs of `c`. -/
theorem div_lt {l b c n : ℕ} (hn : n = b * c) (h : l < n) : l / c < b :=
  Nat.div_lt_of_lt_mul (by rw [Nat.mul_comm, ← hn]; exact h)

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, c]` array cast to `[a, 1, c]` reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]
  | ⟨2, _⟩ =>
    show k.val = if c = 1 then 0 else k.val
    split
    · have := k.isLt; omega
    · rfl

/-- An `[a, b, c]` array cast to `[a, n]`, `n = b·c`, reads, at `(i, l)`, the operand at `(i, l / c, l % c)`. -/
theorem shapeCast_abc_an_apply {a b c n : ℕ} (hn : n = b * c) (hc : 0 < c) (x : (⟨3, ![a, b, c]⟩ : Shape).Idx → α)
    (h : (⟨3, ![a, b, c]⟩ : Shape).ShapeCasts ⟨2, ![a, n]⟩) (i : Fin a) (l : Fin n) :
    shapeCast ⟨2, ![a, n]⟩ x h (ix2 i l)
      = x (ix3 i ⟨l.val / c, div_lt hn l.isLt⟩
            ⟨l.val % c, Nat.mod_lt _ hc⟩) :=
  shapeCast_apply x h _ _ (by
    rw [Shape.rowMajor_val_three, Shape.rowMajor_val_two]
    show (i.val * b + l.val / c) * c + l.val % c = i.val * n + l.val
    subst hn
    rw [Nat.add_mul, Nat.mul_assoc, Nat.add_assoc, Nat.div_add_mod']
    )

/-- The row-wise Kronecker product read at `(i, l)`: `u(i, l / c) · v(i, l % c)`, whatever the product is. -/
theorem kron_apply {β : Type} {a b c n : ℕ} (hn : n = b * c) (hc : 0 < c) (mul : β → β → β)
    (u : (⟨2, ![a, b]⟩ : Shape).Idx → β) (v : (⟨2, ![a, c]⟩ : Shape).Idx → β)
    (h1 : (⟨2, ![a, b]⟩ : Shape).ShapeCasts ⟨3, ![a, b, 1]⟩) (h2 : (⟨2, ![a, c]⟩ : Shape).ShapeCasts ⟨3, ![a, 1, c]⟩)
    (h3 : (⟨3, ![a, b, 1]⟩ : Shape).Broadcasts ⟨3, ![a, b, c]⟩) (h4 : (⟨3, ![a, 1, c]⟩ : Shape).Broadcasts ⟨3, ![a, b, c]⟩)
    (h5 : (⟨3, ![a, b, c]⟩ : Shape).ShapeCasts ⟨2, ![a, n]⟩) (i : Fin a) (l : Fin n) :
    shapeCast ⟨2, ![a, n]⟩ (fun y => mul (broadcastTo ⟨3, ![a, b, c]⟩ (shapeCast ⟨3, ![a, b, 1]⟩ u h1) h3 y)
        (broadcastTo ⟨3, ![a, b, c]⟩ (shapeCast ⟨3, ![a, 1, c]⟩ v h2) h4 y)) h5 (ix2 i l)
      = mul (u (ix2 i ⟨l.val / c, div_lt hn l.isLt⟩))
          (v (ix2 i ⟨l.val % c, Nat.mod_lt _ hc⟩)) := by
  rw [shapeCast_abc_an_apply hn hc, broadcastTo_ab1_abc_apply, broadcastTo_a1c_abc_apply, shapeCast_ab_ab1_apply,
    shapeCast_ac_a1c_apply]

end Idealize.ShloMosaic.KronLayout
-- ==== Proof.Payload.lean ====
/-
  The body's two stored values, read at an entry, on the extended reals (where a change of float format is the
  identity and a matrix product into the zero accumulator is a plain sum).

  The first stored value, at `(p, r)` of the 256 × 256 block, is the first contraction of row `p` of `x` with row
  `r` of the block of the first weight, plus the bias entry `r` of the block of the bias. The second, over the running
  total `acc`, is `acc(p, r)` plus the point's two partial products: the tile of the Kronecker square against the tile
  of the second weight, and the tile of the Kronecker cube — the square's tile times `x`, row by row — against the tile
  of the third weight. Each weight tile enters transposed, so the sums run along the weights' rows.
-/
import proofs.«115219_j75402445848831_1_alg».proof.Proof.Gen.KernelIdeal.Skeleton
import proofs.«115219_j75402445848831_1_alg».proof.Proof.LibMatmulRowsByCols
import proofs.«115219_j75402445848831_1_alg».proof.Proof.LibKronLayout
import Idealize.ShloMosaic.Lib.Pipeline.Value
import Idealize.ShloMosaic.Lib.ValueLayout

noncomputable section

namespace Cert.KernelIdeal.Payload

open Cert.KernelIdeal Cert.KernelIdeal.Gen Idealize.ShloMosaic Idealize.ShloMosaic.ValueIdx

/-! ## The three matrix products, as sums -/

theorem mm64 (l : FVec Ideal S256x64 .bf16) (r : FVec Ideal S64x256 .bf16) (p q : Fin 256) :
    matmul dot_S256x64_S64x256_S256x256_1_0_0_1_n_n none l r (constant (F := Ideal) S256x256 .f32 0x00000000#32) (ix2 p q)
      = ∑ k : Fin 64, l (ix2 p k) * r (ix2 k q) :=
  MatmulRowsByCols.matmul_zero_apply dot_S256x64_S64x256_S256x256_1_0_0_1_n_n rfl rfl
    (fun j q => by
      unfold DotDims.lhsIdx
      rw [dif_neg (show ¬(0 : Fin S256x64.rank) ∈ dot_S256x64_S64x256_S256x256_1_0_0_1_n_n.lhsBatch by decide),
        dif_pos (show (0 : Fin S256x64.rank) ∈ dot_S256x64_S64x256_S256x256_1_0_0_1_n_n.lhsNonContracting by decide)]
      rfl)
    (fun j q => dot_S256x64_S64x256_S256x256_1_0_0_1_n_n.lhsIdx_val_of_single rfl j q)
    (fun j q => dot_S256x64_S64x256_S256x256_1_0_0_1_n_n.rhsIdx_val_of_single rfl j q)
    (fun j q => by
      unfold DotDims.rhsIdx
      rw [dif_neg (show ¬(1 : Fin S64x256.rank) ∈ dot_S256x64_S64x256_S256x256_1_0_0_1_n_n.rhsBatch by decide),
        dif_pos (show (1 : Fin S64x256.rank) ∈ dot_S256x64_S64x256_S256x256_1_0_0_1_n_n.rhsNonContracting by decide)]
      rfl)
    none l r p q

theorem mm128 (l : FVec Ideal S256x128 .bf16) (r : FVec Ideal S128x256 .bf16) (p q : Fin 256) :
    matmul dot_S256x128_S128x256_S256x256_1_0_0_1_n_n none l r (constant (F := Ideal) S256x256 .f32 0x00000000#32) (ix2 p q)
      = ∑ k : Fin 128, l (ix2 p k) * r (ix2 k q) :=
  MatmulRowsByCols.matmul_zero_apply dot_S256x128_S128x256_S256x256_1_0_0_1_n_n rfl rfl
    (fun j q => by
      unfold DotDims.lhsIdx
      rw [dif_neg (show ¬(0 : Fin S256x128.rank) ∈ dot_S256x128_S128x256_S256x256_1_0_0_1_n_n.lhsBatch by decide),
        dif_pos (show (0 : Fin S256x128.rank) ∈ dot_S256x128_S128x256_S256x256_1_0_0_1_n_n.lhsNonContracting by decide)]
      rfl)
    (fun j q => dot_S256x128_S128x256_S256x256_1_0_0_1_n_n.lhsIdx_val_of_single rfl j q)
    (fun j q => dot_S256x128_S128x256_S256x256_1_0_0_1_n_n.rhsIdx_val_of_single rfl j q)
    (fun j q => by
      unfold DotDims.rhsIdx
      rw [dif_neg (show ¬(1 : Fin S128x256.rank) ∈ dot_S256x128_S128x256_S256x256_1_0_0_1_n_n.rhsBatch by decide),
        dif_pos (show (1 : Fin S128x256.rank) ∈ dot_S256x128_S128x256_S256x256_1_0_0_1_n_n.rhsNonContracting by decide)]
      rfl)
    none l r p q

theorem mm8192 (l : FVec Ideal S256x8192 .bf16) (r : FVec Ideal S8192x256 .bf16) (p q : Fin 256) :
    matmul dot_S256x8192_S8192x256_S256x256_1_0_0_1_n_n none l r (constant (F := Ideal) S256x256 .f32 0x00000000#32) (ix2 p q)
      = ∑ k : Fin 8192, l (ix2 p k) * r (ix2 k q) :=
  MatmulRowsByCols.matmul_zero_apply dot_S256x8192_S8192x256_S256x256_1_0_0_1_n_n rfl rfl
    (fun j q => by
      unfold DotDims.lhsIdx
      rw [dif_neg (show ¬(0 : Fin S256x8192.rank) ∈ dot_S256x8192_S8192x256_S256x256_1_0_0_1_n_n.lhsBatch by decide),
        dif_pos (show (0 : Fin S256x8192.rank) ∈ dot_S256x8192_S8192x256_S256x256_1_0_0_1_n_n.lhsNonContracting by decide)]
      rfl)
    (fun j q => dot_S256x8192_S8192x256_S256x256_1_0_0_1_n_n.lhsIdx_val_of_single rfl j q)
    (fun j q => dot_S256x8192_S8192x256_S256x256_1_0_0_1_n_n.rhsIdx_val_of_single rfl j q)
    (fun j q => by
      unfold DotDims.rhsIdx
      rw [dif_neg (show ¬(1 : Fin S8192x256.rank) ∈ dot_S256x8192_S8192x256_S256x256_1_0_0_1_n_n.rhsBatch by decide),
        dif_pos (show (1 : Fin S8192x256.rank) ∈ dot_S256x8192_S8192x256_S256x256_1_0_0_1_n_n.rhsNonContracting by decide)]
      rfl)
    none l r p q

/-! ## The two stored values -/

/-- The value the first point of a run stores first: the first contraction plus the bias. -/
theorem pay1_apply (v31 v33 : FVec Ideal S256x64 .f32) (v37 : FVec Ideal S1x256 .f32) (p r : Fin 256) :
    k0_pay1 (F := Ideal) v31 v33 v37 (ix2 p r)
      = (∑ k : Fin 64, v31 (ix2 p k) * v33 (ix2 r k)) + v37 (ix2 (0 : Fin 1) r) := by
  unfold k0_pay1
  simp only [shapeCast_self]
  refine (addf_apply _ _ _).trans ?_
  refine congrArg₂ (· + ·) ?_ ?_
  · refine (mm64 _ _ p r).trans (Finset.sum_congr rfl fun k _ => ?_)
    exact congrArg₂ (· * ·) rfl ((transpose_ix2_apply _ _ k r).trans rfl)
  · exact broadcastTo_1b_ab_apply _ _ p r

/-- The value every point stores into the running total. -/
theorem pay2_apply (v3 v5 : FVec Ideal S256x128 .f32) (v10 : FVec Ideal S256x64 .f32) (v17 : FVec Ideal S256x8192 .f32)
    (v22 : FVec Ideal S256x256 .f32) (p r : Fin 256) :
    k0_pay2 (F := Ideal) v3 v5 v10 v17 v22 (ix2 p r)
      = v22 (ix2 p r) + ((∑ a : Fin 128, v3 (ix2 p a) * v5 (ix2 r a))
          + ∑ l : Fin 8192, (v3 (ix2 p ⟨l.val / 64, KronLayout.div_lt (b := 128) rfl l.isLt⟩)
              * v10 (ix2 p ⟨l.val % 64, Nat.mod_lt _ (by decide)⟩)) * v17 (ix2 r l)) := by
  unfold k0_pay2
  simp only [shapeCast_self]
  refine (addf_apply _ _ _).trans ?_
  refine congrArg₂ (· + ·) rfl ?_
  refine (addf_apply _ _ _).trans ?_
  refine congrArg₂ (· + ·) ?_ ?_
  · refine (mm128 _ _ p r).trans (Finset.sum_congr rfl fun k _ => ?_)
    exact congrArg₂ (· * ·) rfl ((transpose_ix2_apply _ _ k r).trans rfl)
  · refine (mm8192 _ _ p r).trans (Finset.sum_congr rfl fun l _ => ?_)
    refine congrArg₂ (· * ·) ?_ ((transpose_ix2_apply _ _ l r).trans rfl)
    exact KronLayout.kron_apply (b := 128) (c := 64) rfl (by decide) (fun a b : EReal => a * b) v3 v10 _ _ _ _ _ p l

end Cert.KernelIdeal.Payload

end
-- ==== Proof.LibBlockedSum.lean ====
/-
  A finite sum taken block by block. A sum over the first `a * b` naturals, cut into `a` consecutive blocks of
  length `b`, is the sum over the blocks of each block's sum: block `s` holds the naturals `b * s + j`, `j < b`.
  This is only associativity and commutativity of the addition, so it holds in every commutative additive monoid —
  in particular on the extended reals, where nothing about finiteness is asked. Stated three ways: over ranges, with
  the inner sum over `Fin b`, and with the outer sum over `Fin n` for `n = a * b`.
-/
import Mathlib.Algebra.BigOperators.Fin
import Mathlib.Algebra.BigOperators.Intervals

namespace BlockedSum

open Finset

variable {β : Type*} [AddCommMonoid β]

/-- The sum over `range (a * b)` is the sum over the `a` blocks of the sums over each block's `b` members. -/
theorem sum_range_blocks (a b : ℕ) (g : ℕ → β) :
    ∑ s ∈ range a, ∑ j ∈ range b, g (b * s + j) = ∑ h ∈ range (a * b), g h := by
  induction a with
  | zero => simp
  | succ a ih =>
    rw [sum_range_succ, ih, Nat.succ_mul, sum_range_add, Nat.mul_comm a b]

/-- The same with each block's members indexed by `Fin b`. -/
theorem sum_range_blocks_fin (a b : ℕ) (g : ℕ → β) :
    ∑ s ∈ range a, ∑ j : Fin b, g (b * s + j.val) = ∑ h ∈ range (a * b), g h := by
  rw [← sum_range_blocks a b g]
  exact sum_congr rfl fun s _ => (Finset.sum_range fun j => g (b * s + j)).symm

/-- … and the whole sum indexed by `Fin n`, `n = a * b`: the form in which a contraction over an axis of extent `n`
    meets the same contraction accumulated tile by tile. -/
theorem sum_fin_blocks (a b n : ℕ) (hn : n = a * b) (g : ℕ → β) :
    ∑ s ∈ range a, ∑ j : Fin b, g (b * s + j.val) = ∑ h : Fin n, g h.val := by
  subst hn
  rw [sum_range_blocks_fin, Finset.sum_range]

end BlockedSum
-- ==== Proof.Spec.lean ====
/-
  The degree-three polynomial layer, stated index by index on the extended reals.

  For a batch row `p` and an output column `q` the layer's value is
      b q + ∑ᵢ x p i · W1 q i + ∑ⱼ z2 p j · W2 q j + ∑ₗ z3 p l · W3 q l,
  where `z2 p (64·a + c) = x p a · x p c` is the row's Kronecker square and `z3 p (64·j + c) = z2 p j · x p c` its
  Kronecker cube. Two arrangements of this value are written down: the one-shot form (the bias, then the three
  contractions added in turn), and the tiled form, in which the first contraction and the bias come first and the
  second and third contractions are taken over 32 consecutive tiles (128 columns of `z2`, hence 8192 columns of
  `z3`, per tile), each tile's two partial sums added together before they join the running total. The two agree by
  associativity and commutativity of the addition alone, so nothing is asked of the inputs: the extended reals are a
  commutative additive monoid, infinities included.

  Arrays are read by natural-number coordinates (`rd1`, `rd2`: the entry when the coordinates are inside, `0`
  otherwise; only inside coordinates are ever read), so that all the index arithmetic is arithmetic of naturals.
-/
import Idealize.ShloMosaic.PureOps.Ideal
import Idealize.ShloMosaic.Lib.ValueIdx
import proofs.«115219_j75402445848831_1_alg».proof.Proof.LibBlockedSum

noncomputable section

namespace Cert.Poly3

open Idealize.ShloMosaic Idealize.ShloMosaic.ValueIdx Finset

/-- Entry `i` of a vector of extent `n`, by a natural coordinate. -/
def rd1 {n : Nat} (X : (⟨1, ![n]⟩ : Shape).Idx → EReal) (i : Nat) : EReal :=
  if h : i < n then X (ix1 ⟨i, h⟩) else 0

/-- Entry `(i, j)` of an `n0 × n1` matrix, by natural coordinates. -/
def rd2 {n0 n1 : Nat} (X : (⟨2, ![n0, n1]⟩ : Shape).Idx → EReal) (i j : Nat) : EReal :=
  if h : i < n0 ∧ j < n1 then X (ix2 ⟨i, h.1⟩ ⟨j, h.2⟩) else 0

/-- An entry read at an index whose coordinates are `i`, `j`. -/
theorem rd2_of {n0 n1 : Nat} (X : (⟨2, ![n0, n1]⟩ : Shape).Idx → EReal) (k : (⟨2, ![n0, n1]⟩ : Shape).Idx) (i j : Nat)
    (h0 : (k 0).val = i) (h1 : (k 1).val = j) : X k = rd2 X i j := by
  subst h0 h1
  unfold rd2
  rw [dif_pos ⟨idx2_lt0 k, idx2_lt1 k⟩]
  exact congrArg X (eq_ix2 k)

theorem rd1_of {n : Nat} (X : (⟨1, ![n]⟩ : Shape).Idx → EReal) (k : (⟨1, ![n]⟩ : Shape).Idx) (i : Nat)
    (h0 : (k 0).val = i) : X k = rd1 X i := by
  subst h0
  unfold rd1
  rw [dif_pos (show (k 0).val < n from (k 0).isLt)]
  exact congrArg X (eq_ix1 k)

section
variable (x : (⟨2, ![256, 64]⟩ : Shape).Idx → EReal) (W1 : (⟨2, ![512, 64]⟩ : Shape).Idx → EReal)
  (W2 : (⟨2, ![512, 4096]⟩ : Shape).Idx → EReal) (W3 : (⟨2, ![512, 262144]⟩ : Shape).Idx → EReal)
  (b : (⟨1, ![512]⟩ : Shape).Idx → EReal)

/-- The Kronecker square of row `p`: column `j = 64·a + c` holds `x p a · x p c`. -/
def z2 (p j : Nat) : EReal := rd2 x p (j / 64) * rd2 x p (j % 64)

/-- The first contraction: `∑ᵢ x p i · W1 q i`. -/
def lin (p q : Nat) : EReal := ∑ i : Fin 64, rd2 x p i.val * rd2 W1 q i.val

/-- Tile `s` of the second contraction: the 128 columns `128·s + a` of the Kronecker square against `W2`. -/
def quadTile (p q s : Nat) : EReal := ∑ a : Fin 128, z2 x p (128 * s + a.val) * rd2 W2 q (128 * s + a.val)

/-- Tile `s` of the third contraction: the cube's columns `8192·s + l`, formed from the square's columns
    `128·s + l / 64` and `x`'s columns `l % 64`, against `W3`. -/
def cubeTile (p q s : Nat) : EReal :=
  ∑ l : Fin 8192, (z2 x p (128 * s + l.val / 64) * rd2 x p (l.val % 64)) * rd2 W3 q (8192 * s + l.val)

/-- The second contraction at once: `∑ⱼ z2 p j · W2 q j`. -/
def quad (p q : Nat) : EReal := ∑ j : Fin 4096, z2 x p j.val * rd2 W2 q j.val

/-- The third contraction at once: `∑ₗ (z2 p (l / 64) · x p (l % 64)) · W3 q l`. -/
def cube (p q : Nat) : EReal := ∑ l : Fin 262144, (z2 x p (l.val / 64) * rd2 x p (l.val % 64)) * rd2 W3 q l.val

/-- THE TILED FORM: the first contraction plus the bias, then the 32 tiles' contributions. -/
def tiled (p q : Nat) : EReal :=
  (lin x W1 p q + rd1 b q) + ∑ s ∈ range 32, (quadTile x W2 p q s + cubeTile x W3 p q s)

/-- THE ONE-SHOT FORM: the bias, then the three contractions in turn. -/
def oneShot (p q : Nat) : EReal :=
  ((rd1 b q + lin x W1 p q) + quad x W2 p q) + cube x W3 p q

/-- The tiles of the second contraction make up the whole of it. -/
theorem sum_quadTile (p q : Nat) : ∑ s ∈ range 32, quadTile x W2 p q s = quad x W2 p q := by
  unfold quadTile quad
  exact BlockedSum.sum_fin_blocks 32 128 4096 rfl (fun h => z2 x p h * rd2 W2 q h)

/-- The tiles of the third contraction make up the whole of it: column `8192·s + l` of the cube is formed from the
    square's column `(8192·s + l) / 64 = 128·s + l / 64` and `x`'s column `(8192·s + l) % 64 = l % 64`. -/
theorem sum_cubeTile (p q : Nat) : ∑ s ∈ range 32, cubeTile x W3 p q s = cube x W3 p q := by
  unfold cubeTile cube
  rw [← BlockedSum.sum_fin_blocks 32 8192 262144 rfl (fun h => (z2 x p (h / 64) * rd2 x p (h % 64)) * rd2 W3 q h)]
  refine sum_congr rfl fun s _ => sum_congr rfl fun l _ => ?_
  have e1 : (8192 * s + l.val) / 64 = 128 * s + l.val / 64 := by omega
  have e2 : (8192 * s + l.val) % 64 = l.val % 64 := by omega
  rw [e1, e2]

/-- The two arrangements agree, on every extended-real input. -/
theorem tiled_eq_oneShot (p q : Nat) : tiled x W1 W2 W3 b p q = oneShot x W1 W2 W3 b p q := by
  unfold tiled oneShot
  rw [sum_add_distrib, sum_quadTile, sum_cubeTile, add_comm (lin x W1 p q) (rd1 b q), add_assoc, add_assoc, add_assoc]

end

/-- The layer's result array: the tiled form at the index's coordinates. -/
def result (x : (⟨2, ![256, 64]⟩ : Shape).Idx → EReal) (W1 : (⟨2, ![512, 64]⟩ : Shape).Idx → EReal)
    (W2 : (⟨2, ![512, 4096]⟩ : Shape).Idx → EReal) (W3 : (⟨2, ![512, 262144]⟩ : Shape).Idx → EReal)
    (b : (⟨1, ![512]⟩ : Shape).Idx → EReal) : (⟨2, ![256, 512]⟩ : Shape).Idx → EReal :=
  fun i => tiled x W1 W2 W3 b (i 0).val (i 1).val

end Cert.Poly3

end
-- ==== Proof.RefSquare.lean ====
/-
  The row-wise Kronecker square, as both programs form it on the host, read at coordinates.

  Both programs compute `z2 = (x[:, :, None] * x[:, None, :]).reshape(256, 4096)` with the same five host operations;
  entry `(p, j)` of the result is `x(p, j / 64) · x(p, j % 64)`. The reference's reading of these operations, one at
  a time, is generated; chained, it gives the entry in the specification's words.
-/
import proofs.«115219_j75402445848831_1_alg».proof.Proof.Gen.ReferenceIdeal.Read
import proofs.«115219_j75402445848831_1_alg».proof.Proof.Spec

noncomputable section

namespace Cert.ReferenceIdeal.Square

open Cert.ReferenceIdeal Cert.ReferenceIdeal.Read Cert.Poly3 Idealize.ShloMosaic Idealize.ShloMosaic.ValueIdx

/-- Entry `k` of the Kronecker square of `x` is `x(k₀, k₁ / 64) · x(k₀, k₁ % 64)`. -/
theorem square_apply (x : (⟨2, ![256, 64]⟩ : Shape).Idx → EReal) (k : S256x4096.Idx) :
    val_main_v9 (F := Ideal) x k = z2 x (k 0).val (k 1).val := by
  have h0 : (k 0).val < 256 := (k 0).isLt
  have h1 : (k 1).val < 4096 := (k 1).isLt
  rw [val_main_v9_apply, val_main_v8_apply, val_main_v6_apply, val_main_v7_apply, val_main_v4_apply, val_main_v5_apply]
  unfold z2
  refine congrArg₂ (· * ·) (rd2_of x _ _ _ ?_ ?_) (rd2_of x _ _ _ ?_ ?_)
  · show ((k 0).val * 4096 + (k 1).val) / 4096 = (k 0).val; omega
  · show ((k 0).val * 4096 + (k 1).val) / 64 % 64 = (k 1).val / 64; omega
  · show ((k 0).val * 4096 + (k 1).val) / 4096 = (k 0).val; omega
  · show ((k 0).val * 4096 + (k 1).val) % 64 = (k 1).val % 64; omega

end Cert.ReferenceIdeal.Square

end
-- ==== Proof.Blocks.lean ====
/-
  The input blocks a grid point works on, read at an entry of the arrays they are cut from.

  Point `t` of the 2 × 32 grid is output tile `t / 32` and reduction tile `t % 32`. It sees all of `x`; columns
  `128·(t % 32) …` of the Kronecker square (which the host formed from `x` before the region); rows `256·(t / 32) …`
  of the three weights, with columns `128·(t % 32) …` of the second and `8192·(t % 32) …` of the third; and entries
  `256·(t / 32) …` of the bias (which the host reshaped to one row before the region).
-/
import proofs.«115219_j75402445848831_1_alg».proof.Proof.Gen.KernelIdeal.Frame
import proofs.«115219_j75402445848831_1_alg».proof.Proof.RefSquare
import Idealize.ShloMosaic.Lib.StableHlo.Run
import Idealize.ShloMosaic.Lib.ValueLayout

noncomputable section

namespace Cert.KernelIdeal.Blocks

open Cert.KernelIdeal Cert.KernelIdeal.Gen Cert.Poly3 Idealize.ShloMosaic Idealize.ShloMosaic.TcCoe Idealize.SL.Sem
  Idealize.ShloMosaic.ValueIdx Idealize.ShloMosaic.StableHlo

variable (m : (ℓ : Loc nD τ sig) → Buf (Elt Ideal) ℓ)

/-! ## The argument arrays, as functions of literal-shape indices -/

abbrev argX (c : Dev nD) : (⟨2, ![256, 64]⟩ : Shape).Idx → EReal := m ((c : Thread nD τ).loc main_arg0)
abbrev argW1 (c : Dev nD) : (⟨2, ![512, 64]⟩ : Shape).Idx → EReal := m ((c : Thread nD τ).loc main_arg1)
abbrev argW2 (c : Dev nD) : (⟨2, ![512, 4096]⟩ : Shape).Idx → EReal := m ((c : Thread nD τ).loc main_arg2)
abbrev argW3 (c : Dev nD) : (⟨2, ![512, 262144]⟩ : Shape).Idx → EReal := m ((c : Thread nD τ).loc main_arg3)
abbrev argB (c : Dev nD) : (⟨1, ![512]⟩ : Shape).Idx → EReal := m ((c : Thread nD τ).loc main_arg4)

/-! ## Which block each window holds at each point (decided over the 64 points) -/

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = t.val % 32 :=
  (by decide +kernel : ∀ t : Fin grid0.N, _)
theorem idx2 : ∀ t : Fin cfg0.N, win0_2.index t (0 : Fin 2) = t.val / 32 ∧ win0_2.index t (1 : Fin 2) = 0 :=
  (by decide +kernel : ∀ t : Fin grid0.N, _)
theorem idx3 : ∀ t : Fin cfg0.N, win0_3.index t (0 : Fin 2) = t.val / 32 ∧ win0_3.index t (1 : Fin 2) = t.val % 32 :=
  (by decide +kernel : ∀ t : Fin grid0.N, _)
theorem idx4 : ∀ t : Fin cfg0.N, win0_4.index t (0 : Fin 2) = t.val / 32 ∧ win0_4.index t (1 : Fin 2) = t.val % 32 :=
  (by decide +kernel : ∀ t : Fin grid0.N, _)
theorem idx5 : ∀ t : Fin cfg0.N, win0_5.index t (0 : Fin 2) = 0 ∧ win0_5.index t (1 : Fin 2) = t.val / 32 :=
  (by decide +kernel : ∀ t : Fin grid0.N, _)
theorem idx6 : ∀ t : Fin cfg0.N, win0_6.index t (0 : Fin 2) = 0 ∧ win0_6.index t (1 : Fin 2) = t.val / 32 :=
  (by decide +kernel : ∀ t : Fin grid0.N, _)

/-! ## What the host left in the two arrays it made before the region -/

/-- The Kronecker square the host formed: the same five operations as the reference's. -/
theorem V_square (c : Dev nD) :
    (V m c main_v5 : S256x4096.Idx → EReal) = Cert.ReferenceIdeal.Read.val_main_v9 (F := Ideal) (argX m c) := by
  dsimp only [Gen.V, Gen.hostOps0]
  after_results
  rfl

/-- The bias, reshaped to one row. -/
theorem V_biasRow (c : Dev nD) :
    (V m c main_v6 : S1x512.Idx → EReal) = shapeCast S1x512 (argB m c) shapeCasts_S512_S1x512 := by
  dsimp only [Gen.V, Gen.hostOps0]
  after_results
  rfl

/-! ## The blocks -/

/-- Window 0's block at a point, read at an entry. -/
theorem blk0 (c : Dev nD) (t : Fin cfg0.N) (y : S256x64.Idx) :
    (iblk m c 0 t : Vec Ideal S256x64 .f32) y = rd2 (argX m c) ((y 0).val) ((y 1).val) := by
  unfold iblk
  rw [View.read_apply]
  show V m c main_arg0 _ = _
  refine (congrFun (V_main_arg0 m c) _).trans ?_
  refine rd2_of (argX m c) _ _ _ ?_ ?_
  · show win0_0.index t 0 * 256 + 1 * (y 0).val = _
    rw [(idx0 t).1]; omega
  · show win0_0.index t 1 * 64 + 1 * (y 1).val = _
    rw [(idx0 t).2]; omega

/-- Window 2's block at a point, read at an entry. -/
theorem blk2 (c : Dev nD) (t : Fin cfg0.N) (y : S256x64.Idx) :
    (iblk m c 2 t : Vec Ideal S256x64 .f32) y = rd2 (argW1 m c) (256 * (t.val / 32) + (y 0).val) ((y 1).val) := by
  unfold iblk
  rw [View.read_apply]
  show V m c main_arg1 _ = _
  refine (congrFun (V_main_arg1 m c) _).trans ?_
  refine rd2_of (argW1 m c) _ _ _ ?_ ?_
  · show win0_2.index t 0 * 256 + 1 * (y 0).val = _
    rw [(idx2 t).1]; omega
  · show win0_2.index t 1 * 64 + 1 * (y 1).val = _
    rw [(idx2 t).2]; omega

/-- Window 3's block at a point, read at an entry. -/
theorem blk3 (c : Dev nD) (t : Fin cfg0.N) (y : S256x128.Idx) :
    (iblk m c 3 t : Vec Ideal S256x128 .f32) y = rd2 (argW2 m c) (256 * (t.val / 32) + (y 0).val) (128 * (t.val % 32) + (y 1).val) := by
  unfold iblk
  rw [View.read_apply]
  show V m c main_arg2 _ = _
  refine (congrFun (V_main_arg2 m c) _).trans ?_
  refine rd2_of (argW2 m c) _ _ _ ?_ ?_
  · show win0_3.index t 0 * 256 + 1 * (y 0).val = _
    rw [(idx3 t).1]; omega
  · show win0_3.index t 1 * 128 + 1 * (y 1).val = _
    rw [(idx3 t).2]; omega

/-- Window 4's block at a point, read at an entry. -/
theorem blk4 (c : Dev nD) (t : Fin cfg0.N) (y : S256x8192.Idx) :
    (iblk m c 4 t : Vec Ideal S256x8192 .f32) y = rd2 (argW3 m c) (256 * (t.val / 32) + (y 0).val) (8192 * (t.val % 32) + (y 1).val) := by
  unfold iblk
  rw [View.read_apply]
  show V m c main_arg3 _ = _
  refine (congrFun (V_main_arg3 m c) _).trans ?_
  refine rd2_of (argW3 m c) _ _ _ ?_ ?_
  · show win0_4.index t 0 * 256 + 1 * (y 0).val = _
    rw [(idx4 t).1]; omega
  · show win0_4.index t 1 * 8192 + 1 * (y 1).val = _
    rw [(idx4 t).2]; omega

/-- Window 1's block at a point: columns `128·(t % 32) …` of the Kronecker square. -/
theorem blk1 (c : Dev nD) (t : Fin cfg0.N) (y : S256x128.Idx) :
    (iblk m c 1 t : Vec Ideal S256x128 .f32) y = z2 (argX m c) (y 0).val (128 * (t.val % 32) + (y 1).val) := by
  unfold iblk
  rw [View.read_apply]
  show V m c main_v5 _ = _
  refine (congrFun (V_square m c) _).trans ?_
  refine (Cert.ReferenceIdeal.Square.square_apply (argX m c) _).trans ?_
  refine congrArg₂ (z2 (argX m c)) ?_ ?_
  · show win0_1.index t 0 * 256 + 1 * (y 0).val = _
    rw [(idx1 t).1]; omega
  · show win0_1.index t 1 * 128 + 1 * (y 1).val = _
    rw [(idx1 t).2]; omega

/-- Window 5's block at a point: entries `256·(t / 32) …` of the bias. -/
theorem blk5 (c : Dev nD) (t : Fin cfg0.N) (y : S1x256.Idx) :
    (iblk m c 5 t : Vec Ideal S1x256 .f32) y = rd1 (argB m c) (256 * (t.val / 32) + (y 1).val) := by
  unfold iblk
  rw [View.read_apply]
  show V m c main_v6 _ = _
  refine (congrFun (V_biasRow m c) _).trans ?_
  refine (shapeCast_apply (argB m c) shapeCasts_S512_S1x512 _ (ix1 ⟨256 * (t.val / 32) + (y 1).val, by
      have h1 : (y 1).val < 256 := (y 1).isLt
      have ht : t.val < 64 := lt_of_lt_of_eq t.isLt N_0
      show 256 * (t.val / 32) + (y 1).val < 512
      omega⟩) ?_).trans (rd1_of (argB m c) _ _ rfl)
  rw [Shape.rowMajor_val_one, Shape.rowMajor_val_two]
  show 256 * (t.val / 32) + (y 1).val = (win0_5.index t 0 * 1 + 1 * (y 0).val) * 512 + (win0_5.index t 1 * 256 + 1 * (y 1).val)
  have h0 : (y 0).val < 1 := (y 0).isLt
  rw [(idx5 t).1, (idx5 t).2]; omega

end Cert.KernelIdeal.Blocks

end
-- ==== Proof.TileValue.lean ====
/-
  The kernel's result array, entry by entry: the tiled form of the layer.

  Output tile `o` (columns `256·o …` of the result) is worked on by the 32 consecutive grid points `32·o … 32·o + 31`.
  The first of them sets the running total to the first contraction plus the bias and adds its own two partial products;
  each later one adds its two partial products to what the point before left; the last one copies the total to the
  output block, which is then written back. So the total after the last point is the first contraction plus the bias
  plus the sum over the 32 reduction tiles of each tile's two partial products — the tiled form — and the 2 output
  tiles' blocks make up the whole array.
-/
import proofs.«115219_j75402445848831_1_alg».proof.Proof.Gen.KernelIdeal.Value
import proofs.«115219_j75402445848831_1_alg».proof.Proof.Pieces
import proofs.«115219_j75402445848831_1_alg».proof.Proof.Payload
import proofs.«115219_j75402445848831_1_alg».proof.Proof.Blocks

noncomputable section

namespace Cert.KernelIdeal.TileValue

open Cert.KernelIdeal Cert.KernelIdeal.Gen Cert.KernelIdeal.Blocks Cert.Poly3 Idealize.ShloMosaic Idealize.ShloMosaic.TcCoe
  Idealize.SL.Sem Idealize.ShloMosaic.ValueIdx
open Idealize.ShloMosaic.Pipeline (Dat)

variable (m : (ℓ : Loc nD τ sig) → Buf (Elt Ideal) ℓ) (ρ : Dev nD → PrngReg)

/-! ## One point's contribution -/

/-- What point `n` adds at entry `y` of the running total: reduction tile `n % 32` of the second and third
    contractions, for batch row `y₀` and output column `256·(n / 32) + y₁`. -/
def addend (c : Dev nD) (n : ℕ) (y : S256x256.Idx) : EReal :=
  quadTile (argX m c) (argW2 m c) (y 0).val (256 * (n / 32) + (y 1).val) (n % 32)
    + cubeTile (argX m c) (argW3 m c) (y 0).val (256 * (n / 32) + (y 1).val) (n % 32)

/-- What the running total of output tile `o` starts from: the first contraction plus the bias. -/
def base (c : Dev nD) (o : ℕ) (y : S256x256.Idx) : EReal :=
  lin (argX m c) (argW1 m c) (y 0).val (256 * o + (y 1).val) + rd1 (argB m c) (256 * o + (y 1).val)

/-- The value every point stores, over the point's own blocks: the running total plus the point's contribution. -/
theorem step_apply (c : Dev nD) (n : ℕ) (hb : n < cfg0.N) (acc : FVec Ideal S256x256 .f32) (y : S256x256.Idx) :
    k0_pay2 (F := Ideal) (iblk m c 1 (⟨n, hb⟩ : Fin cfg0.N)) (iblk m c 3 (⟨n, hb⟩ : Fin cfg0.N)) (iblk m c 0 (⟨n, hb⟩ : Fin cfg0.N)) (iblk m c 4 (⟨n, hb⟩ : Fin cfg0.N)) acc y
      = acc y + addend m c n y := by
  obtain ⟨p, r, rfl⟩ : ∃ (p r : Fin 256), y = ix2 p r := ⟨y 0, y 1, eq_ix2 y⟩
  refine (Payload.pay2_apply (iblk m c 1 (⟨n, hb⟩ : Fin cfg0.N)) (iblk m c 3 (⟨n, hb⟩ : Fin cfg0.N)) (iblk m c 0 (⟨n, hb⟩ : Fin cfg0.N)) (iblk m c 4 (⟨n, hb⟩ : Fin cfg0.N)) acc p r).trans ?_
  refine congrArg (acc (ix2 p r) + ·) ?_
  unfold addend quadTile cubeTile
  refine congrArg₂ (· + ·) (Finset.sum_congr rfl fun a _ => ?_) (Finset.sum_congr rfl fun l _ => ?_)
  · exact congrArg₂ (· * ·) (blk1 m c (⟨n, hb⟩ : Fin cfg0.N) _) (blk3 m c (⟨n, hb⟩ : Fin cfg0.N) _)
  · exact congrArg₂ (· * ·) (congrArg₂ (· * ·) (blk1 m c (⟨n, hb⟩ : Fin cfg0.N) _) (blk0 m c (⟨n, hb⟩ : Fin cfg0.N) _)) (blk4 m c (⟨n, hb⟩ : Fin cfg0.N) _)

/-- The value the first point of a run stores first, over the point's own blocks. -/
theorem base_apply (c : Dev nD) (n : ℕ) (hb : n < cfg0.N) (y : S256x256.Idx) :
    k0_pay1 (F := Ideal) (iblk m c 0 (⟨n, hb⟩ : Fin cfg0.N)) (iblk m c 2 (⟨n, hb⟩ : Fin cfg0.N)) (iblk m c 5 (⟨n, hb⟩ : Fin cfg0.N)) y = base m c (n / 32) y := by
  obtain ⟨p, r, rfl⟩ : ∃ (p r : Fin 256), y = ix2 p r := ⟨y 0, y 1, eq_ix2 y⟩
  refine (Payload.pay1_apply (iblk m c 0 (⟨n, hb⟩ : Fin cfg0.N)) (iblk m c 2 (⟨n, hb⟩ : Fin cfg0.N)) (iblk m c 5 (⟨n, hb⟩ : Fin cfg0.N)) p r).trans ?_
  unfold base lin
  refine congrArg₂ (· + ·) (Finset.sum_congr rfl fun k _ => ?_) (blk5 m c (⟨n, hb⟩ : Fin cfg0.N) _)
  exact congrArg₂ (· * ·) (blk0 m c (⟨n, hb⟩ : Fin cfg0.N) _) (blk2 m c (⟨n, hb⟩ : Fin cfg0.N) _)

/-! ## The running total, point by point -/

/-- At the first point of a run the scratch ends at the start value plus the point's contribution, whatever it held. -/
theorem scAt_first (c : Dev nD) (n : ℕ) (hb : n < cfg0.N) (h0 : n % 32 = 0) (acc : Vec Ideal S256x256 .f32)
    (y : S256x256.Idx) : Value.scAt0_0 m c n hb acc y = base m c (n / 32) y + addend m c n y := by
  have h1 : ¬n % 32 = 31 := by omega
  unfold Value.scAt0_0
  rw [dif_pos h0, dif_neg h1]
  refine (congrFun (Pieces.sout_A (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N))) y).trans ?_
  refine (step_apply m c n hb _ y).trans ?_
  exact congrArg (· + addend m c n y) (base_apply m c n hb y)

/-- At every later point it ends at what it held plus the point's contribution. -/
theorem scAt_later (c : Dev nD) (n : ℕ) (hb : n < cfg0.N) (h0 : ¬n % 32 = 0) (acc : Vec Ideal S256x256 .f32)
    (y : S256x256.Idx) : Value.scAt0_0 m c n hb acc y = acc y + addend m c n y := by
  unfold Value.scAt0_0
  rw [dif_neg h0]
  by_cases h1 : n % 32 = 31
  · rw [dif_pos h1]
    refine (congrFun (Pieces.sout_C (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc) y).trans ?_
    exact step_apply m c n hb acc y
  · rw [dif_neg h1]
    refine (congrFun (Pieces.sout_B (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc) y).trans ?_
    exact step_apply m c n hb acc y

/-- So after point `t` the scratch holds the start value of `t`'s output tile plus the contributions of the run's
    points up to `t`. -/
theorem scratch_after (c : Dev nD) (t : Fin cfg0.N) (y : S256x256.Idx) :
    (outsAt0 m c t.val t.isLt).2 y
      = base m c (t.val / 32) y + ∑ s ∈ Finset.range (t.val % 32 + 1), addend m c (32 * (t.val / 32) + s) y := by
  refine (congrFun (Value.soutsAt0_0_eq m c t) y).trans ?_
  refine Pipeline.accAt_add_apply (fun n h => Value.scAt0_0 m c n h (VS0_0.read (Elt Ideal) VS0_0.junk)) (Value.scAt0_0 m c)
    (base m c (t.val / 32)) (addend m c) (32 * (t.val / 32)) 31 (fun h i => ?_) (fun n h acc i hlt hle => ?_)
    (t.val % 32) (by omega) _ y
  · have e := scAt_first m c (32 * (t.val / 32)) h (by omega) (VS0_0.read (Elt Ideal) VS0_0.junk) i
    rw [show 32 * (t.val / 32) / 32 = t.val / 32 from by omega] at e
    exact e
  · exact scAt_later m c n h (by omega) acc i

/-- At the last point of a run the output block is a copy of the scratch. -/
theorem out_eq_scratch (c : Dev nD) (t : Fin cfg0.N) (h0 : ¬t.val % 32 = 0) (h1 : t.val % 32 = 31) :
    (outsAt0 m c t.val t.isLt).1 = (outsAt0 m c t.val t.isLt).2 := by
  rw [outsAt0_C m c t h0 h1]
  dsimp only
  refine (Pieces.out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2).trans ?_
  exact (Pieces.sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2).symm

/-- At the last point of a run the output block holds the scratch's final contents: the tiled form. -/
theorem out_last (c : Dev nD) (t : Fin cfg0.N) (h1 : t.val % 32 = 31) (y : S256x256.Idx) :
    (outsAt0 m c t.val t.isLt).1 y
      = tiled (argX m c) (argW1 m c) (argW2 m c) (argW3 m c) (argB m c) (y 0).val (256 * (t.val / 32) + (y 1).val) := by
  have h0 : ¬t.val % 32 = 0 := by omega
  have e := out_eq_scratch m c t h0 h1
  refine (congrFun e y).trans ((scratch_after m c t y).trans ?_)
  rw [h1]
  unfold tiled base
  refine congrArg (_ + ·) (Finset.sum_congr rfl fun s hs => ?_)
  have hs' : s < 32 := Finset.mem_range.mp hs
  unfold addend
  rw [show (32 * (t.val / 32) + s) / 32 = t.val / 32 from by omega, show (32 * (t.val / 32) + s) % 32 = s from by omega]

/-! ## From the blocks to the array -/

/-- The result array's contents: the layer's result of the argument arrays. -/
abbrev G (c : Dev nD) : Buf (Elt Ideal) ((c : Thread nD τ).loc main_v7) :=
  result (argX m c) (argW1 m c) (argW2 m c) (argW3 m c) (argB m c)

/-- What a writing-back point writes is its block of the layer's result. -/
theorem flushed_eq (c : Dev nD) (t : Fin cfg0.N) (hf : (cfg0.win 6).flush t = true) :
    (dats m 0 c).flushed 6 t = ((cfg0.win 6).blk t).view.read (Elt Ideal) (G m c) := by
  have h1 : t.val % 32 = 31 := (flush0_6 t).mp hf
  rw [Value.flushed6]
  funext j
  show (outsAt0 m c t.val t.isLt).1 j = G m c (((cfg0.win 6).blk t).view.emb j)
  refine (out_last m c t h1 j).trans ?_
  show _ = tiled (argX m c) (argW1 m c) (argW2 m c) (argW3 m c) (argB m c) _ _
  refine congrArg₂ (tiled (argX m c) (argW1 m c) (argW2 m c) (argW3 m c) (argB m c)) ?_ ?_
  · show (j 0).val = win0_6.index t 0 * 256 + 1 * (j 0).val
    rw [(idx6 t).1]; omega
  · show 256 * (t.val / 32) + (j 1).val = win0_6.index t 1 * 256 + 1 * (j 1).val
    rw [(idx6 t).2]; omega

/-- An index of the array is in point `t`'s block iff each coordinate is in the block's range on its axis. -/
theorem mem_blk (t : Fin cfg0.N) (i : S256x512.Idx) :
    i ∈ ((cfg0.win 6).blk t).view.set ↔ ∀ a : Fin 2, win0_6.index t a * S256x256.size a ≤ (i a).val ∧ (i a).val < win0_6.index t a * S256x256.size a + S256x256.size a := by
  show i ∈ ((View.whole main_v7).slice (win0_6.rect t)).set ↔ _
  rw [View.set_slice_whole, Rect.mem_set_unit]
  exact Iff.rfl

/-- Column `q` of the result lies in the block written back at the last point of output tile `q / 256`. -/
theorem cover (i : S256x512.Idx) : ∃ t : Fin cfg0.N, (cfg0.win 6).flush t = true ∧ i ∈ ((cfg0.win 6).blk t).view.set := by
  have h0 : (i 0).val < 256 := (i 0).isLt
  have h1 : (i 1).val < 512 := (i 1).isLt
  have hN : cfg0.N = 64 := N_0
  obtain ⟨t, ht⟩ : ∃ t : Fin cfg0.N, t.val = 32 * ((i 1).val / 256) + 31 := ⟨⟨32 * ((i 1).val / 256) + 31, by rw [hN]; omega⟩, rfl⟩
  refine ⟨t, (flush0_6 t).mpr (by omega), ?_⟩
  rw [mem_blk]
  intro a
  match a with
  | ⟨0, _⟩ =>
    show win0_6.index t 0 * 256 ≤ (i 0).val ∧ (i 0).val < win0_6.index t 0 * 256 + 256
    rw [(idx6 t).1]; omega
  | ⟨1, _⟩ =>
    show win0_6.index t 1 * 256 ≤ (i 1).val ∧ (i 1).val < win0_6.index t 1 * 256 + 256
    rw [(idx6 t).2]; omega

/-- So the result array ends holding the layer's result. -/
theorem final (c : Dev nD) : (dats m 0 c).arrAt 6 cfg0.N = G m c :=
  (dats m 0 c).arrAt_eq_of_cover 6 (G m c) (flushed_eq m c) cover

/-- The kernel's run, read: the result array at the layer's result of the arguments, the arguments unchanged. -/
theorem run : θ_run defs (onTc (τ := τ) (main (F := Ideal))) ⟨m, fun _ => 0, ρ⟩ fun r => ∀ c : Dev nD,
      r.2.mem ((c : Thread nD τ).loc main_v7) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.TileValue

end
-- ==== Proof.RefValue.lean ====
/-
  The reference computes the one-shot form: at `(p, q)` the bias `b q`, then `x·W1ᵀ`, then the Kronecker square
  against `W2`, then the Kronecker cube against `W3`, each a contraction along the weights' rows, added in turn.
  The cube is formed on the host from the square as the square is from `x`: column `l` of row `p` is the square's
  column `l / 64` times `x`'s column `l % 64`.
-/
import proofs.«115219_j75402445848831_1_alg».proof.Proof.RefSquare

noncomputable section

namespace Cert.ReferenceIdeal.RefValue

open Cert.ReferenceIdeal Cert.ReferenceIdeal.Read Cert.ReferenceIdeal.Square Cert.Poly3 Idealize.ShloMosaic
  Idealize.ShloMosaic.ValueIdx

/-- Entry `j` of the Kronecker cube of `x` is the square's `(j₀, j₁ / 64)` times `x(j₀, j₁ % 64)`. -/
theorem cube_apply (x : (⟨2, ![256, 64]⟩ : Shape).Idx → EReal) (j : S256x262144.Idx) :
    val_main_v17 (F := Ideal) x j = z2 x (j 0).val ((j 1).val / 64) * rd2 x (j 0).val ((j 1).val % 64) := by
  have h0 : (j 0).val < 256 := (j 0).isLt
  have h1 : (j 1).val < 262144 := (j 1).isLt
  rw [val_main_v17_apply, val_main_v16_apply, val_main_v14_apply, val_main_v15_apply, val_main_v12_apply,
    val_main_v13_apply, square_apply]
  refine congrArg₂ (· * ·) (congrArg₂ (z2 x) ?_ ?_) (rd2_of x _ _ _ ?_ ?_)
  · show ((j 0).val * 262144 + (j 1).val) / 262144 = (j 0).val; omega
  · show ((j 0).val * 262144 + (j 1).val) / 64 % 4096 = (j 1).val / 64; omega
  · show ((j 0).val * 262144 + (j 1).val) / 262144 = (j 0).val; omega
  · show ((j 0).val * 262144 + (j 1).val) % 64 = (j 1).val % 64; omega

/-- The reference's result is the one-shot form, entry by entry. -/
theorem result_eq (x : (⟨2, ![256, 64]⟩ : Shape).Idx → EReal) (W1 : (⟨2, ![512, 64]⟩ : Shape).Idx → EReal)
    (W2 : (⟨2, ![512, 4096]⟩ : Shape).Idx → EReal) (W3 : (⟨2, ![512, 262144]⟩ : Shape).Idx → EReal)
    (b : (⟨1, ![512]⟩ : Shape).Idx → EReal) :
    val_main_v19 (F := Ideal) x W1 W2 W3 b = fun i => oneShot x W1 W2 W3 b (i 0).val (i 1).val := by
  funext i
  rw [val_main_v19_apply, val_main_v11_apply, val_main_v3_apply, val_main_v18_apply, val_main_v10_apply,
    val_main_v1_apply, val_main_v2_apply, val_main_v0_apply]
  unfold oneShot lin quad cube
  refine congrArg₂ (· + ·) (congrArg₂ (· + ·) (congrArg₂ (· + ·) (rd1_of b _ _ rfl) ?_) ?_) ?_
  · exact Finset.sum_congr rfl fun k _ => congrArg₂ (· * ·) (rd2_of x _ _ _ rfl rfl) (rd2_of W1 _ _ _ rfl rfl)
  · exact Finset.sum_congr rfl fun k _ => congrArg₂ (· * ·) (square_apply x _) (rd2_of W2 _ _ _ rfl rfl)
  · exact Finset.sum_congr rfl fun k _ => congrArg₂ (· * ·) (cube_apply x _) (rd2_of W3 _ _ _ rfl rfl)

end Cert.ReferenceIdeal.RefValue

end
-- ==== Proof.lean ====
/-
  The degree-three polynomial layer `out = b + x·W1ᵀ + (x ⊗ x)·W2ᵀ + (x ⊗ x ⊗ x)·W3ᵀ` (per batch row, `⊗` the Kronecker
  product), computed by a kernel that tiles the second and third contractions over 32 reduction tiles and never forms
  the Kronecker cube whole, against the plain reference that forms it and contracts three times.

  On the extended reals both compute, at batch row `p` and output column `q`, a sum of the same products: the bias
  entry, the 64 products of the first contraction, the 4096 of the second and the 262144 of the third. The reference
  adds the three contractions to the bias in turn; the kernel starts each output tile's running total at the first
  contraction plus the bias and adds, reduction tile by reduction tile, that tile's part of the second contraction
  plus that tile's part of the third (whose cube columns it forms on the fly from the square's tile and `x`). The two
  arrangements differ only by the grouping and order of additions, which the extended reals allow without any
  finiteness (Spec: `tiled_eq_oneShot`), so the precondition is never opened. The changes of float format on the way
  into the matrix unit are the identity there, and a product accumulated into zero is the plain sum.

  The idealized kernel is the kernel's own text read on the extended reals (nothing was rewritten), so what is
  claimed of that step is trivially true. The frames of both kernel programs are the generated ones; the reference's
  frame is its generated run with the result dropped.
-/
import proofs.«115219_j75402445848831_1_alg».proof.Defs
import proofs.«115219_j75402445848831_1_alg».proof.Proof.Gen.Kernel
import proofs.«115219_j75402445848831_1_alg».proof.Proof.Gen.Kernel.Frame
import proofs.«115219_j75402445848831_1_alg».proof.Proof.Gen.KernelIdeal
import proofs.«115219_j75402445848831_1_alg».proof.Proof.Gen.KernelIdeal.Frame
import proofs.«115219_j75402445848831_1_alg».proof.Proof.Gen.KernelIdeal.Value
import proofs.«115219_j75402445848831_1_alg».proof.Proof.Gen.ReferenceIdeal
import proofs.«115219_j75402445848831_1_alg».proof.Proof.Gen.ReferenceIdeal.Run
import proofs.«115219_j75402445848831_1_alg».proof.Proof.Gen.ReferenceIdeal.Read
import proofs.«115219_j75402445848831_1_alg».proof.Proof.Gen.Pre_finite_inputs
import proofs.«115219_j75402445848831_1_alg».proof.Proof.TileValue
import proofs.«115219_j75402445848831_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's result array ends at the tiled form of the layer and the reference's at the one-shot form, of
    arguments that agree: the same extended reals, entry by entry. -/
theorem algebraic : Cert.algebraic_KernelIdeal_ReferenceIdeal := by
  intro m ρ m' ρ' _ hagree
  refine ⟨fun c => Cert.KernelIdeal.TileValue.G m c, Cert.KernelIdeal.TileValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefValue.result_eq, (hagree c).1, (hagree c).2.1,
    (hagree c).2.2.1, (hagree c).2.2.2.1, (hagree c).2.2.2.2]
  funext i
  exact (Cert.Poly3.tiled_eq_oneShot _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
